-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S512x768 : Shape := ⟨2, ![512, 768]⟩
abbrev S512 : Shape := ⟨1, ![512]⟩
abbrev S768x512 : Shape := ⟨2, ![768, 512]⟩
abbrev S768 : Shape := ⟨1, ![768]⟩
abbrev S768x768 : Shape := ⟨2, ![768, 768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S768x512 : S_.BroadcastsInDim S768x512 (![] : Fin 0 → Fin S768x512.rank)
  reducesTo_S768x512_S_d0_1 : S768x512.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part2 {F : FTy → Type} [FloatOps F] (main_arg7 : FVec F S768 .f32) (main_arg8 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768 .f32) (main_arg8 : FVec F S768 .f32) (main_v13 : IVec S_ 1) (main_v16 : IVec S768x512 1) : IVec S_ 1 :=
  let main_c_5 : IVec S_ 1 := constantI S_ 1 1#1
  let main_v17 : IVec S_ 1 := (fun x v => Host.reduce IntOp.andi x v reducesTo_S768x512_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S8x4096x768 .f32) (main_arg1 : FVec F S512x768 .f32) (main_arg2 : FVec F S512 .f32) (main_arg3 : FVec F S768x512 .f32) (main_arg4 : FVec F S768 .f32) (main_arg5 : FVec F S768x768 .f32) (main_arg6 : FVec F S768 .f32) (main_arg7 : FVec F S768 .f32) (main_arg8 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S768x512 .f32 := Host.absf main_arg3
  let main_cst_4 : FVec F S_ .f32 := constant S_ .f32 0x7F800000#32
  let main_v15 : FVec F S768x512 .f32 := broadcastInDim S768x512 ![] bcast_S_S768x512 main_cst_4
  let main_v16 : IVec S768x512 1 := cmpf .olt main_v14 main_v15
  fn_part1 (F := F) main_arg4 main_arg5 main_arg6 main_arg7 main_arg8 main_v13 main_v16
-- ==== Kernel.lean ====
abbrev S8x4096x768 : Shape := ⟨3, ![8, 4096, 768]⟩
abbrev S512x768 : Shape := ⟨2, ![512, 768]⟩
abbrev S512 : Shape := ⟨1, ![512]⟩
abbrev S768x512 : Shape := ⟨2, ![768, 512]⟩
abbrev S768 : Shape := ⟨1, ![768]⟩
abbrev S768x768 : Shape := ⟨2, ![768, 768]⟩
abbrev S32768x768 : Shape := ⟨2, ![32768, 768]⟩
abbrev S1x512 : Shape := ⟨2, ![1, 512]⟩
abbrev S1x768 : Shape := ⟨2, ![1, 768]⟩
abbrev S1024x768 : Shape := ⟨2, ![1024, 768]⟩
abbrev S1024x512 : Shape := ⟨2, ![1024, 512]⟩
abbrev S1024 : Shape := ⟨1, ![1024]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S8x4096x768, .f32⟩
  | .hbm, ⟨1, _⟩ => ⟨S512x768, .f32⟩
  | .hbm, ⟨2, _⟩ => ⟨S512, .f32⟩
  | .hbm, ⟨3, _⟩ => ⟨S768x512, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S32768x768, .f32⟩
  | .hbm, ⟨10, _⟩ => ⟨S512x768, .bf16⟩
  | .hbm, ⟨11, _⟩ => ⟨S768x512, .bf16⟩
  | .hbm, ⟨12, _⟩ => ⟨S768x768, .bf16⟩
  | .hbm, ⟨13, _⟩ => ⟨S1x512, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S32768x768, .f32⟩
  | .hbm, ⟨19, _⟩ => ⟨S8x4096x768, .f32⟩
  | .local _ .vmem, ⟨0, _⟩ => ⟨S1024x768, .f32⟩
  | .local _ .vmem, ⟨1, _⟩ => ⟨S1024x768, .f32⟩
  | .local _ .vmem, ⟨2, _⟩ => ⟨S512x768, .bf16⟩
  | .local _ .vmem, ⟨3, _⟩ => ⟨S1x512, .f32⟩
  | .local _ .vmem, ⟨4, _⟩ => ⟨S768x512, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1024x768, .f32⟩
  | .local _ .vmem, ⟨11, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x4096x768_S32768x768 : S8x4096x768.ShapeCasts S32768x768
  bitsLt_bf16_f32 : FTy.bits .bf16 < FTy.bits .f32
  shapeCasts_S512_S1x512 : S512.ShapeCasts S1x512
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S1024x768_S1024 : S1024x768.Reduces [1] S1024
  shapeCasts_S1024_S1024x1 : S1024.ShapeCasts S1024x1
  broadcasts_S1024x1_S1024x768 : S1024x1.Broadcasts S1024x768
  shapeCasts_S32768x768_S8x4096x768 : S32768x768.ShapeCasts S8x4096x768
  dot_S1024x768_S512x768_S1024x512_1_1_0_0_n_n_wf : DotDims.WF S1024x768 S512x768 S1024x512 [1] [1] [0] [0] [] []
  dot_S1024x512_S768x512_S1024x768_1_1_0_0_n_n_wf : DotDims.WF S1024x512 S768x512 S1024x768 [1] [1] [0] [0] [] []
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .bf16 = 32 ∨ (Rect.block (s := S512x768) S512x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .bf16 = 32 ∨ (Rect.block (s := S768x512) S768x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x768.size a ≤ S32768x768.size a
  hwx0_9 : ∀ i : grid0.Coords, EltTy.bits .f32 = 32 ∨ (Rect.block (s := S32768x768) S1024x768.size (cc0_transform_9 i) (hinb0_9 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S768x512_S1024x768_1_1_0_0_n_n : DotDims S1024x512 S768x512 S1024x768 where
  lhsContracting := [1]
  rhsContracting := [1]
  lhsNonContracting := [0]
  rhsNonContracting := [0]
  lhsBatch := []
  rhsBatch := []
  wf := dot_S1024x512_S768x512_S1024x768_1_1_0_0_n_n_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S512x768 : Shape := ⟨2, ![512, 768]⟩
abbrev S512 : Shape := ⟨1, ![512]⟩
abbrev S768x512 : Shape := ⟨2, ![768, 512]⟩
abbrev S768 : Shape := ⟨1, ![768]⟩
abbrev S768x768 : Shape := ⟨2, ![768, 768]⟩
abbrev S8x4096x512 : Shape := ⟨3, ![8, 4096, 512]⟩
abbrev S1x1x512 : Shape := ⟨3, ![1, 1, 512]⟩
abbrev S_ : Shape := ⟨0, ![]⟩
abbrev S1x1x768 : Shape := ⟨3, ![1, 1, 768]⟩
abbrev S8x4096 : Shape := ⟨2, ![8, 4096]⟩
abbrev S8x4096x1 : Shape := ⟨3, ![8, 4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S512x768, .f32⟩
  | .hbm, ⟨2, _⟩ => ⟨S512, .f32⟩
  | .hbm, ⟨3, _⟩ => ⟨S768x512, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S8x4096x512, .f32⟩
  | .hbm, ⟨10, _⟩ => ⟨S1x1x512, .f32⟩
  | .hbm, ⟨11, _⟩ => ⟨S8x4096x512, .f32⟩
  | .hbm, ⟨12, _⟩ => ⟨S8x4096x512, .f32⟩
  | .hbm, ⟨13, _⟩ => ⟨S_, .f32⟩
  | .hbm, ⟨14, _⟩ => ⟨S8x4096x512, .f32⟩
  | .hbm, ⟨15, _⟩ => ⟨S8x4096x512, .f32⟩
  | .hbm, ⟨16, _⟩ => ⟨S8x4096x768, .f32⟩
  | .hbm, ⟨17, _⟩ => ⟨S1x1x768, .f32⟩
  | .hbm, ⟨18, _⟩ => ⟨S8x4096x768, .f32⟩
  | .hbm, ⟨19, _⟩ => ⟨S8x4096x768, .f32⟩
  | .hbm, ⟨20, _⟩ => ⟨S8x4096x768, .f32⟩
  | .hbm, ⟨21, _⟩ => ⟨S1x1x768, .f32⟩
  | .hbm, ⟨22, _⟩ => ⟨S8x4096x768, .f32⟩
  | .hbm, ⟨23, _⟩ => ⟨S8x4096x768, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x768, .f32⟩
  | .hbm, ⟨31, _⟩ => ⟨S8x4096x768, .f32⟩
  | .hbm, ⟨32, _⟩ => ⟨S8x4096x768, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x768, .f32⟩
  | .hbm, ⟨40, _⟩ => ⟨S8x4096x768, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x768, .f32⟩
  | .hbm, ⟨46, _⟩ => ⟨S8x4096x768, .f32⟩
  | .hbm, ⟨47, _⟩ => ⟨S1x1x768, .f32⟩
  | .hbm, ⟨48, _⟩ => ⟨S8x4096x768, .f32⟩
  | .hbm, ⟨49, _⟩ => ⟨S8x4096x768, .f32⟩
  | .hbm, ⟨50, _⟩ => ⟨S1x1x768, .f32⟩
  | .hbm, ⟨51, _⟩ => ⟨S8x4096x768, .f32⟩
  | .hbm, ⟨52, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  reducesTo_S8x4096x768_S8x4096_d2 : S8x4096x768.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x768_0_1_2 : S8x4096x1.BroadcastsInDim S8x4096x768 (![0, 1, 2] : Fin 3 → Fin S8x4096x768.rank)
  dot_S8x4096x768_S512x768_S8x4096x512_2_1_01_0_n_n_wf : DotDims.WF S8x4096x768 S512x768 S8x4096x512 [2] [1] [0, 1] [0] [] []
  dot_S8x4096x512_S768x512_S8x4096x768_2_1_01_0_n_n_wf : DotDims.WF S8x4096x512 S768x512 S8x4096x768 [2] [1] [0, 1] [0] [] []
  dot_S8x4096x768_S768x768_S8x4096x768_2_1_01_0_n_n_wf : DotDims.WF S8x4096x768 S768x768 S8x4096x768 [2] [1] [0, 1] [0] [] []

variable [Facts₀]

def dot_S8x4096x768_S512x768_S8x4096x512_2_1_01_0_n_n : DotDims S8x4096x768 S512x768 S8x4096x512 where
  lhsContracting := [2]
  rhsContracting := [1]
  lhsNonContracting := [0, 1]
  rhsNonContracting := [0]
  lhsBatch := []
  rhsBatch := []
  wf := dot_S8x4096x768_S512x768_S8x4096x512_2_1_01_0_n_n_wf
def dot_S8x4096x512_S768x512_S8x4096x768_2_1_01_0_n_n : DotDims S8x4096x512 S768x512 S8x4096x768 where
  lhsContracting := [2]
  rhsContracting := [1]
  lhsNonContracting := [0, 1]
  rhsNonContracting := [0]
  lhsBatch := []
  rhsBatch := []
  wf := dot_S8x4096x512_S768x512_S8x4096x768_2_1_01_0_n_n_wf
def dot_S8x4096x768_S768x768_S8x4096x768_2_1_01_0_n_n : DotDims S8x4096x768 S768x768 S8x4096x768 where
  lhsContracting := [2]
  rhsContracting := [1]
  lhsNonContracting := [0, 1]
  rhsNonContracting := [0]
  lhsBatch := []
  rhsBatch := []
  wf := dot_S8x4096x768_S768x768_S8x4096x768_2_1_01_0_n_n_wf

class Facts : Prop extends Facts₀ where

variable [Facts]
-- ==== Proof.LibDenseRows.lean ====
/-
  General lemmas for a kernel that pushes tokens (rows) through dense layers and a row normalisation, all read at the
  exact (extended) reals, where every float operation is the textbook one:

  * the keepdims column forms: an `[a]` vector viewed as a column `[a, 1]`, and a column `[a, 1]` broadcast along
    the rows of an `[a, b]` array;
  * the sum of an `[a, b]` array along its second axis, read at a row, is the sum over that row;
  * a matrix product of an `[M, K]` array with an `[N, K]` array contracting BOTH second axes (the weight stored
    output-major, as a linear layer keeps it), accumulated into zero, read at `(r, c)`, is `Σ_k lhs (r, k) · rhs (c, k)`;
  * one dense layer: that product plus a bias row `[1, N]` broadcast over the rows.

  Nothing here mentions a particular program: the extents are variables, only ranks and axis lists are literal.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDenseRows

open Idealize.ShloMosaic Idealize.ShloMosaic.ValueIdx

/-! ## The keepdims column forms -/

section Layout
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The sum of an `[a, b]` array along its second axis, at the exact reals, read at row `r`: the sum over that row
    (the accumulator word is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-! ## A product against an output-major weight -/

section Dense
variable {M K N : ℕ} {φ₁ φ₂ : FTy}

/-- The dimension numbers of `[M, K] · [N, K]ᵀ`: both second axes contracted, no batch axis. -/
abbrev dimsNT (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  ⟨[1], [1], [0], [0], [], [], wf⟩

variable (wf : DotDims.WF (⟨2, ![M, K]⟩ : Shape) ⟨2, ![N, K]⟩ ⟨2, ![M, N]⟩ [1] [1] [0] [0] [] [])

theorem dimsNT_lhs0 (j : (⟨2, ![M, N]⟩ : Shape).Idx) (q : (dimsNT wf).contr.Idx) :
    ((dimsNT wf).lhsIdx j q 0).val = (j 0).val := by
  unfold DotDims.lhsIdx
  rw [dif_neg (show ¬(0 : Fin (⟨2, ![M, K]⟩ : Shape).rank) ∈ (dimsNT wf).lhsBatch from List.not_mem_nil),
    dif_pos (show (0 : Fin (⟨2, ![M, K]⟩ : Shape).rank) ∈ (dimsNT wf).lhsNonContracting from List.mem_singleton.mpr rfl)]
  rfl
theorem dimsNT_lhs1 (j : (⟨2, ![M, N]⟩ : Shape).Idx) (q : (dimsNT wf).contr.Idx) :
    ((dimsNT wf).lhsIdx j q 1).val = (q ⟨0, Nat.one_pos⟩).val :=
  (dimsNT wf).lhsIdx_val_of_single rfl j q
theorem dimsNT_rhs0 (j : (⟨2, ![M, N]⟩ : Shape).Idx) (q : (dimsNT wf).contr.Idx) :
    ((dimsNT wf).rhsIdx j q 0).val = (j 1).val := by
  unfold DotDims.rhsIdx
  rw [dif_neg (show ¬(0 : Fin (⟨2, ![N, K]⟩ : Shape).rank) ∈ (dimsNT wf).rhsBatch from List.not_mem_nil),
    dif_pos (show (0 : Fin (⟨2, ![N, K]⟩ : Shape).rank) ∈ (dimsNT wf).rhsNonContracting from List.mem_singleton.mpr rfl)]
  rfl
theorem dimsNT_rhs1 (j : (⟨2, ![M, N]⟩ : Shape).Idx) (q : (dimsNT wf).contr.Idx) :
    ((dimsNT wf).rhsIdx j q 1).val = (q ⟨0, Nat.one_pos⟩).val :=
  (dimsNT wf).rhsIdx_val_of_single rfl j q

/-- THE PRODUCT READ AT `(r, c)`: accumulated into the zero splat it is `Σ_k lhs (r, k) · rhs (c, k)` — a sum over a
    `Fin K` in which no order of accumulation is left. -/
theorem matmulNT_zero_apply (prec : Option ContractPrecision) (lhs : FVec Ideal ⟨2, ![M, K]⟩ φ₁)
    (rhs : FVec Ideal ⟨2, ![N, K]⟩ φ₂) (r : Fin M) (c : Fin N) :
    FloatOps.matmul (dimsNT wf) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k :=
    funext fun a => Fin.ext (by
      match a with
      | ⟨0, _⟩ => exact dimsNT_lhs0 wf _ _
      | ⟨1, _⟩ => exact (dimsNT_lhs1 wf _ _).trans hk)
  have er : (dimsNT wf).rhsIdx (ix2 r c) ((contrEquiv1 (dimsNT wf) K rfl rfl).symm k) = ix2 c k :=
    funext fun a => Fin.ext (by
      match a with
      | ⟨0, _⟩ => exact dimsNT_rhs0 wf _ _
      | ⟨1, _⟩ => exact (dimsNT_rhs1 wf _ _).trans hk)
  rw [el, er]

/-- ONE DENSE LAYER on a tile of `M` tokens: the product into zero plus a bias row `[1, N]` broadcast over the rows,
    read at token `r` and output unit `c`, is `Σ_k lhs (r, k) · rhs (c, k) + bias (0, c)`. -/
theorem denseNT_apply (prec : Option ContractPrecision) (lhs : FVec Ideal ⟨2, ![M, K]⟩ φ₁)
    (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) prec lhs rhs (constant ⟨2, ![M, N]⟩ .f32 0x00000000#32)) (broadcastTo ⟨2, ![M, N]⟩ bias hb) (ix2 r c)
      = ∑ k : Fin K, lhs (ix2 r k) * rhs (ix2 c k) + bias (ix2 (0 : Fin 1) c) := by
  rw [addf_apply, broadcastTo_1b_ab_apply]
  exact congrArg (· + bias (ix2 (0 : Fin 1) c)) (matmulNT_zero_apply wf prec lhs rhs r c)

end Dense

end Cert.LibDenseRows

end
-- ==== Proof.TokenSpec.lean ====
/-
  THE SPECIFICATION: what both programs compute, as one function of the argument arrays, index by index, at the exact
  (extended) reals.

  Each of the 8 · 4096 tokens is a row `x` of 768 numbers and is treated alone:

      h i = max (Σ_d x d · W1 i d + b1 i) 0             (512 hidden units)
      p d = Σ_i h i · W2 d i + b2 d                     (back to 768)
      o e = Σ_d p d · Wo e d + bo e                     (the output projection)
      μ   = (Σ_e o e) / 768 ,   σ² = (Σ_e (o e − μ)²) / 768
      out e = (o e − μ) · rsqrt (σ² + ε) · γ e + β e    (the row normalised, scaled and shifted)

  The three float literals (the zero the hidden units are clipped at, the row length 768 and ε) are kept as their words:
  both programs carry the same words, so their values are never needed.
-/
import Idealize.ShloMosaic.PureOps.Ideal
import Idealize.ShloMosaic.Lib.ValueIdx

noncomputable section

namespace Cert.TokenSpec

open Idealize.ShloMosaic Idealize.ShloMosaic.ValueIdx

/-- One dense layer applied to one token: `n ↦ Σ_k x k · W n k + b n` (the weight stored output-major). -/
def affine {K N : ℕ} (x : Fin K → EReal) (W : Fin N → Fin K → EReal) (b : Fin N → EReal) (n : Fin N) : EReal :=
  ∑ k : Fin K, x k * W n k + b n

/-- A hidden unit clipped below at the zero word. -/
def clip0 (v : EReal) : EReal := max v (Ideal.ofBits .f32 0x00000000#32)

/-- The mean of a row of 768 numbers: its sum divided by the word for 768. -/
def rowMean (o : Fin 768 → EReal) : EReal :=
  Ideal.div (∑ e : Fin 768, o e) (Ideal.ofBits .f32 0x44400000#32)

/-- A row with its mean taken off. -/
def centred (o : Fin 768 → EReal) (e : Fin 768) : EReal := o e - rowMean o

/-- The (biased) variance of a row: the mean of the squares of the centred row. -/
def rowVar (o : Fin 768 → EReal) : EReal :=
  Ideal.div (∑ e : Fin 768, centred o e * centred o e) (Ideal.ofBits .f32 0x44400000#32)

/-- The row normalised, scaled by `g` and shifted by `be`. -/
def normed (o g be : Fin 768 → EReal) (e : Fin 768) : EReal :=
  centred o e * Ideal.rsqrt (rowVar o + Ideal.ofBits .f32 0x3727C5AC#32) * g e + be e

/-- The output projection of one token, before the normalisation: three dense layers, the first clipped at zero. -/
def projected (x : Fin 768 → EReal) (W1 : Fin 512 → Fin 768 → EReal) (b1 : Fin 512 → EReal)
    (W2 : Fin 768 → Fin 512 → EReal) (b2 : Fin 768 → EReal) (Wo : Fin 768 → Fin 768 → EReal) (bo : Fin 768 → EReal) :
    Fin 768 → EReal :=
  affine (affine (fun i => clip0 (affine x W1 b1 i)) W2 b2) Wo bo

/-- One token's result. -/
def token (x : Fin 768 → EReal) (W1 : Fin 512 → Fin 768 → EReal) (b1 : Fin 512 → EReal)
    (W2 : Fin 768 → Fin 512 → EReal) (b2 : Fin 768 → EReal) (Wo : Fin 768 → Fin 768 → EReal) (bo g be : Fin 768 → EReal) :
    Fin 768 → EReal :=
  normed (projected x W1 b1 W2 b2 Wo bo) g be

/-- THE RESULT ARRAY as one function of the nine argument arrays: entry `(b, s, e)` is component `e` of the result of
    token `(b, s)`, whose row is `x (b, s, ·)`. -/
def G (x : FVec Ideal ⟨3, ![8, 4096, 768]⟩ .f32) (W1 : FVec Ideal ⟨2, ![512, 768]⟩ .f32) (b1 : FVec Ideal ⟨1, ![512]⟩ .f32)
    (W2 : FVec Ideal ⟨2, ![768, 512]⟩ .f32) (b2 : FVec Ideal ⟨1, ![768]⟩ .f32) (Wo : FVec Ideal ⟨2, ![768, 768]⟩ .f32)
    (bo g be : FVec Ideal ⟨1, ![768]⟩ .f32) : FVec Ideal ⟨3, ![8, 4096, 768]⟩ .f32 := fun i =>
  token (fun d => x (ix3 (i 0) (i 1) d)) (fun n k => W1 (ix2 n k)) (fun n => b1 (ix1 n)) (fun n k => W2 (ix2 n k))
    (fun n => b2 (ix1 n)) (fun n k => Wo (ix2 n k)) (fun n => bo (ix1 n)) (fun n => g (ix1 n)) (fun n => be (ix1 n)) (i 2)

/-- `G` at an index given by its coordinates. -/
theorem G_apply (x : FVec Ideal ⟨3, ![8, 4096, 768]⟩ .f32) (W1 : FVec Ideal ⟨2, ![512, 768]⟩ .f32) (b1 : FVec Ideal ⟨1, ![512]⟩ .f32)
    (W2 : FVec Ideal ⟨2, ![768, 512]⟩ .f32) (b2 : FVec Ideal ⟨1, ![768]⟩ .f32) (Wo : FVec Ideal ⟨2, ![768, 768]⟩ .f32)
    (bo g be : FVec Ideal ⟨1, ![768]⟩ .f32) (b : Fin 8) (s : Fin 4096) (e : Fin 768) :
    G x W1 b1 W2 b2 Wo bo g be (ix3 b s e)
      = token (fun d => x (ix3 b s d)) (fun n k => W1 (ix2 n k)) (fun n => b1 (ix1 n)) (fun n k => W2 (ix2 n k))
          (fun n => b2 (ix1 n)) (fun n k => Wo (ix2 n k)) (fun n => bo (ix1 n)) (fun n => g (ix1 n)) (fun n => be (ix1 n)) e := rfl

end Cert.TokenSpec

end
-- ==== Proof.KernelPayload.lean ====
/-
  The kernel body's arithmetic, read at an index at the exact reals. The body handles a tile of 1024 tokens: row `r` of
  the tile goes through the three dense layers (each a product against an output-major weight plus a bias row), the row's
  mean and variance are taken along the 768 outputs, and the row is normalised, scaled and shifted. Each of the body's four
  named values is shown here to be, at row `r`, the specification's function of row `r` of the input tile: the rows of
  a tile never mix.
-/
import proofs.«128961_j58480274702562_1_alg».proof.Proof.Gen.KernelIdeal.Skeleton
import proofs.«128961_j58480274702562_1_alg».proof.Proof.LibDenseRows
import proofs.«128961_j58480274702562_1_alg».proof.Proof.TokenSpec

noncomputable section

namespace Cert.KernelIdeal.Payload

open Idealize.ShloMosaic Idealize.ShloMosaic.ValueIdx Cert.KernelIdeal Cert.KernelIdeal.Gen Cert.TokenSpec Cert.LibDenseRows

/-- A dense layer depends on the token only through its entries. -/
theorem affine_congr {K N : ℕ} {x y : Fin K → EReal} (h : ∀ k, x k = y k) (W : Fin N → Fin K → EReal) (b : Fin N → EReal)
    (n : Fin N) : affine x W b n = affine y W b n := by rw [funext h]

/-- One dense layer of the body on the tile, at token `r` and unit `c`, is the specification's layer on row `r`. -/
theorem dense_affine {M K N : ℕ} {φ₁ φ₂ : FTy}
    (wf : DotDims.WF (⟨2, ![M, K]⟩ : Shape) ⟨2, ![N, K]⟩ ⟨2, ![M, N]⟩ [1] [1] [0] [0] [] [])
    (lhs : FVec Ideal ⟨2, ![M, K]⟩ φ₁) (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) none lhs rhs (constant ⟨2, ![M, N]⟩ .f32 0x00000000#32)) (broadcastTo ⟨2, ![M, N]⟩ bias hb) (ix2 r c)
      = affine (fun k => lhs (ix2 r k)) (fun n k => rhs (ix2 n k)) (fun n => bias (ix2 (0 : Fin 1) n)) c :=
  denseNT_apply wf none lhs rhs bias hb r c

section
variable (v0 : FVec Ideal S1024x768 .f32) (v3 : FVec Ideal S512x768 .bf16) (v6 : FVec Ideal S1x512 .f32)
  (v13 : FVec Ideal S768x512 .bf16) (v16 : FVec Ideal S1x768 .f32) (v21 : FVec Ideal S768x768 .bf16) (v24 : FVec Ideal S1x768 .f32)

/-- Row `r` of the tile after the three layers, as the specification writes it. -/
abbrev rowOut (r : Fin 1024) : Fin 768 → EReal :=
  projected (fun d => v0 (ix2 r d)) (fun n k => v3 (ix2 n k)) (fun n => v6 (ix2 (0 : Fin 1) n))
    (fun n k => v13 (ix2 n k)) (fun n => v16 (ix2 (0 : Fin 1) n)) (fun n k => v21 (ix2 n k))
    (fun n => v24 (ix2 (0 : Fin 1) n))

/-- The output projection, before the normalisation, at row `r` and output `e` of the tile. -/
theorem pay2_apply (r : Fin 1024) (e : Fin 768) :
    k0_pay2 (F := Ideal) v0 v3 v6 v13 v16 v21 v24 (ix2 r e) = rowOut v0 v3 v6 v13 v16 v21 v24 r e := by
  unfold k0_pay2
  simp only [shapeCast_self]
  refine (dense_affine _ _ _ _ _ r e).trans ?_
  unfold rowOut projected
  refine affine_congr (fun k => ?_) _ _ e
  refine (truncf_apply (ψ := .bf16) _ bitsLt_bf16_f32 (ix2 r k)).trans ((dense_affine _ _ _ _ _ r k).trans ?_)
  refine affine_congr (fun i => ?_) _ _ k
  refine (truncf_apply (ψ := .bf16) _ bitsLt_bf16_f32 (ix2 r i)).trans ((maximumf_apply _ _ (ix2 r i)).trans ?_)
  exact congrArg clip0 (dense_affine _ _ _ _ _ r i)

/-- The row's mean, kept as a column: at row `r` the mean of row `r`'s outputs. -/
theorem pay3_apply (r : Fin 1024) (u : Fin 1) :
    k0_pay3 (F := Ideal) v0 v3 v6 v13 v16 v21 v24 (ix2 r u) = rowMean (rowOut v0 v3 v6 v13 v16 v21 v24 r) := by
  unfold k0_pay3
  dsimp only
  refine (divf_apply _ _ (ix2 r u)).trans ?_
  refine congrArg (fun s => Ideal.div s (Ideal.ofBits .f32 0x44400000#32)) ?_
  refine (shapeCast_a_a1_apply _ _ r u).trans ((rowSum_apply _ _ _ _ _ r).trans ?_)
  exact Finset.sum_congr rfl fun e _ => pay2_apply v0 v3 v6 v13 v16 v21 v24 r e

/-- The row's sum of squared deviations from its mean, kept as a column. -/
theorem pay4_apply (r : Fin 1024) (u : Fin 1) :
    k0_pay4 (F := Ideal) v0 v3 v6 v13 v16 v21 v24 (ix2 r u)
      = ∑ e : Fin 768, centred (rowOut v0 v3 v6 v13 v16 v21 v24 r) e * centred (rowOut v0 v3 v6 v13 v16 v21 v24 r) e := by
  unfold k0_pay4
  dsimp only
  refine (shapeCast_a_a1_apply _ _ r u).trans ((rowSum_apply _ _ _ _ _ r).trans ?_)
  refine Finset.sum_congr rfl fun e _ => ?_
  have hc : subf (k0_pay2 (F := Ideal) v0 v3 v6 v13 v16 v21 v24)
      (broadcastTo S1024x768 (k0_pay3 (F := Ideal) v0 v3 v6 v13 v16 v21 v24) broadcasts_S1024x1_S1024x768) (ix2 r e)
        = centred (rowOut v0 v3 v6 v13 v16 v21 v24 r) e :=
    (subf_apply _ _ (ix2 r e)).trans (congrArg₂ (· - ·) (pay2_apply v0 v3 v6 v13 v16 v21 v24 r e)
      ((broadcastTo_a1_ab_apply _ _ r e).trans (pay3_apply v0 v3 v6 v13 v16 v21 v24 r 0)))
  exact (mulf_apply _ _ (ix2 r e)).trans (congrArg₂ (· * ·) hc hc)

end

/-- The stored value from the three columns and the scale and shift rows: centre, multiply by the reciprocal root of
    variance plus ε, scale, shift — all pointwise along the row. -/
theorem pay1_apply (v27 : FVec Ideal S1024x768 .f32) (v31 v36 : FVec Ideal S1024x1 .f32) (v46 v50 : FVec Ideal S1x768 .f32)
    (r : Fin 1024) (e : Fin 768) :
    k0_pay1 (F := Ideal) v27 v31 v36 (Scalar.ofBits .f32 0x44400000#32) v46 v50 (ix2 r e)
      = (v27 (ix2 r e) - v31 (ix2 r (0 : Fin 1)))
          * Ideal.rsqrt (Ideal.div (v36 (ix2 r (0 : Fin 1))) (Ideal.ofBits .f32 0x44400000#32) + Ideal.ofBits .f32 0x3727C5AC#32)
          * v46 (ix2 (0 : Fin 1) e) + v50 (ix2 (0 : Fin 1) e) := by
  unfold k0_pay1
  simp only [shapeCast_self]
  refine (addf_apply _ _ (ix2 r e)).trans (congrArg₂ (· + ·) ?_ (broadcastTo_1b_ab_apply _ _ r e))
  refine (mulf_apply _ _ (ix2 r e)).trans (congrArg₂ (· * ·) ?_ (broadcastTo_1b_ab_apply _ _ r e))
  refine (mulf_apply _ _ (ix2 r e)).trans (congrArg₂ (· * ·) ?_ ?_)
  · exact (subf_apply _ _ (ix2 r e)).trans (congrArg (v27 (ix2 r e) - ·) (broadcastTo_a1_ab_apply _ _ r e))
  · exact (broadcastTo_a1_ab_apply _ _ r e).trans rfl

/-- THE BODY'S STORED VALUE at row `r`, output `e` of the tile: the specification's token function of row `r` of
    the input tile, the weights read as they stand in their staging buffers, the bias and affine rows at their one row. -/
theorem body_apply (x0 : FVec Ideal S1024x768 .f32) (x1 : FVec Ideal S512x768 .bf16) (x2 : FVec Ideal S1x512 .f32)
    (x3 : FVec Ideal S768x512 .bf16) (x4 : FVec Ideal S1x768 .f32) (x5 : FVec Ideal S768x768 .bf16)
    (x6 x7 x8 : FVec Ideal S1x768 .f32) (r : Fin 1024) (e : Fin 768) :
    k0_pay1 (F := Ideal) (k0_pay2 x0 x1 x2 x3 x4 x5 x6) (k0_pay3 x0 x1 x2 x3 x4 x5 x6) (k0_pay4 x0 x1 x2 x3 x4 x5 x6)
        (Scalar.ofBits .f32 0x44400000#32) x7 x8 (ix2 r e)
      = token (fun d => x0 (ix2 r d)) (fun n k => x1 (ix2 n k)) (fun n => x2 (ix2 (0 : Fin 1) n))
          (fun n k => x3 (ix2 n k)) (fun n => x4 (ix2 (0 : Fin 1) n)) (fun n k => x5 (ix2 n k))
          (fun n => x6 (ix2 (0 : Fin 1) n)) (fun n => x7 (ix2 (0 : Fin 1) n)) (fun n => x8 (ix2 (0 : Fin 1) n)) e := by
  refine (pay1_apply _ _ _ _ _ r e).trans ?_
  rw [pay2_apply, pay3_apply, pay4_apply]
  rfl

end Cert.KernelIdeal.Payload

end
-- ==== Proof.KernelBlocks.lean ====
/-
  From the tiles to the array. The grid has 32 points; point `t` works on rows `1024·t … 1024·t + 1023` of the flattened
  token array (32768 rows of 768) and writes back the same rows of the result; the six weight and bias windows and the
  two affine rows are whole arrays at every point. Since a row of a tile is treated alone, what point `t` writes back
  is its block of ONE function of the region's arrays, row by row, and the 32 blocks tile the result array: the array
  ends at that function.
-/
import proofs.«128961_j58480274702562_1_alg».proof.Proof.Gen.KernelIdeal.Frame
import proofs.«128961_j58480274702562_1_alg».proof.Proof.KernelPayload
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.TokenSpec

variable (m : (ℓ : Loc nD τ sig) → Buf (Elt Ideal) ℓ)

theorem hz : (![0, 0] : Fin 2 → Nat) = fun _ => 0 := funext fun a => by fin_cases a <;> rfl

/-- The flattened result as one function of the flattened token array and of the weights as the region finds them: row
    `R` is the specification's token function of row `R`. -/
def rowsFn (X : FVec Ideal S32768x768 .f32) (W1 : FVec Ideal S512x768 .bf16) (B1 : FVec Ideal S1x512 .f32)
    (W2 : FVec Ideal S768x512 .bf16) (B2 : FVec Ideal S1x768 .f32) (Wo : FVec Ideal S768x768 .bf16)
    (Bo Gm Bt : FVec Ideal S1x768 .f32) : FVec Ideal S32768x768 .f32 := fun i =>
  token (fun d => X (ix2 (i 0) d)) (fun n k => W1 (ix2 n k)) (fun n => B1 (ix2 (0 : Fin 1) n)) (fun n k => W2 (ix2 n k))
    (fun n => B2 (ix2 (0 : Fin 1) n)) (fun n k => Wo (ix2 n k)) (fun n => Bo (ix2 (0 : Fin 1) n))
    (fun n => Gm (ix2 (0 : Fin 1) n)) (fun n => Bt (ix2 (0 : Fin 1) n)) (i 1)

theorem rowsFn_apply (X : FVec Ideal S32768x768 .f32) (W1 : FVec Ideal S512x768 .bf16) (B1 : FVec Ideal S1x512 .f32)
    (W2 : FVec Ideal S768x512 .bf16) (B2 : FVec Ideal S1x768 .f32) (Wo : FVec Ideal S768x768 .bf16)
    (Bo Gm Bt : FVec Ideal S1x768 .f32) (R : Fin 32768) (e : Fin 768) :
    rowsFn X W1 B1 W2 B2 Wo Bo Gm Bt (ix2 R e)
      = token (fun d => X (ix2 R d)) (fun n k => W1 (ix2 n k)) (fun n => B1 (ix2 (0 : Fin 1) n)) (fun n k => W2 (ix2 n k))
          (fun n => B2 (ix2 (0 : Fin 1) n)) (fun n k => Wo (ix2 n k)) (fun n => Bo (ix2 (0 : Fin 1) n))
          (fun n => Gm (ix2 (0 : Fin 1) n)) (fun n => Bt (ix2 (0 : Fin 1) n)) e := rfl

/-- ONE POINT, over plain vectors: if row `r` of the input tile is row `R` of the array and the other eight tiles are
    the whole arrays, the body's stored value at `(r, e)` is the array function at `(R, e)`. -/
theorem tile_point (X : FVec Ideal S32768x768 .f32) (W1 : FVec Ideal S512x768 .bf16) (B1 : FVec Ideal S1x512 .f32)
    (W2 : FVec Ideal S768x512 .bf16) (B2 : FVec Ideal S1x768 .f32) (Wo : FVec Ideal S768x768 .bf16)
    (Bo Gm Bt : FVec Ideal S1x768 .f32)
    (x0 : FVec Ideal S1024x768 .f32) (x1 : FVec Ideal S512x768 .bf16) (x2 : FVec Ideal S1x512 .f32)
    (x3 : FVec Ideal S768x512 .bf16) (x4 : FVec Ideal S1x768 .f32) (x5 : FVec Ideal S768x768 .bf16)
    (x6 x7 x8 : FVec Ideal S1x768 .f32) (r : Fin 1024) (e : Fin 768) (R : Fin 32768)
    (h0 : ∀ d : Fin 768, x0 (ix2 r d) = X (ix2 R d))
    (h1 : ∀ (n : Fin 512) (k : Fin 768), x1 (ix2 n k) = W1 (ix2 n k))
    (h2 : ∀ n : Fin 512, x2 (ix2 (0 : Fin 1) n) = B1 (ix2 (0 : Fin 1) n))
    (h3 : ∀ (n : Fin 768) (k : Fin 512), x3 (ix2 n k) = W2 (ix2 n k))
    (h4 : ∀ n : Fin 768, x4 (ix2 (0 : Fin 1) n) = B2 (ix2 (0 : Fin 1) n))
    (h5 : ∀ (n : Fin 768) (k : Fin 768), x5 (ix2 n k) = Wo (ix2 n k))
    (h6 : ∀ n : Fin 768, x6 (ix2 (0 : Fin 1) n) = Bo (ix2 (0 : Fin 1) n))
    (h7 : ∀ n : Fin 768, x7 (ix2 (0 : Fin 1) n) = Gm (ix2 (0 : Fin 1) n))
    (h8 : ∀ n : Fin 768, x8 (ix2 (0 : Fin 1) n) = Bt (ix2 (0 : Fin 1) n)) :
    k0_pay1 (F := Ideal) (k0_pay2 x0 x1 x2 x3 x4 x5 x6) (k0_pay3 x0 x1 x2 x3 x4 x5 x6) (k0_pay4 x0 x1 x2 x3 x4 x5 x6)
        (Scalar.ofBits .f32 0x44400000#32) x7 x8 (ix2 r e)
      = rowsFn X W1 B1 W2 B2 Wo Bo Gm Bt (ix2 R e) := by
  rw [Payload.body_apply, rowsFn_apply]
  simp only [h0, h1, h2, h3, h4, h5, h6, h7, h8]

/-- The printed index maps, decided over the 32 grid points: the token and result windows move down the rows with the
    point, every other window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `r` of point `t`'s token tile is row `1024·t + r` of the flattened token array. -/
theorem iblk0_apply (c : Dev nD) (t : Fin cfg0.N) (r : Fin 1024) (d : Fin 768) (R : Fin 32768)
    (hR : R.val = t.val * 1024 + r.val) :
    iblk m c 0 t (ix2 r d) = V m c main_v0 (ix2 R d) := by
  obtain ⟨e0, e1, -⟩ := idx_facts t
  show V m c main_v0 (((cfg0.win 0).blk t).view.emb (ix2 r d)) = _
  refine congrArg (V m c main_v0) (funext fun a => Fin.ext ?_)
  match a with
  | ⟨0, _⟩ => show win0_0.index t (0 : Fin 2) * 1024 + 1 * r.val = R.val; omega
  | ⟨1, _⟩ => show win0_0.index t (1 : Fin 2) * 768 + 1 * d.val = d.val; omega

/-! The other eight input windows are whole arrays at every point: their one block is the array. -/

/-- The first weight's tile is the weight. -/
theorem iblk1_apply (c : Dev nD) (t : Fin cfg0.N) (n : Fin 512) (k : Fin 768) :
    iblk m c 1 t (ix2 n k) = V m c main_v1 (ix2 n k) := by
  obtain ⟨-, -, e0, e1, -⟩ := idx_facts t
  show V m c main_v1 (((cfg0.win 1).blk t).view.emb (ix2 n k)) = _
  refine congrArg (V m c main_v1) (funext fun a => Fin.ext ?_)
  match a with
  | ⟨0, _⟩ => show win0_1.index t (0 : Fin 2) * 512 + 1 * n.val = n.val; omega
  | ⟨1, _⟩ => show win0_1.index t (1 : Fin 2) * 768 + 1 * k.val = k.val; omega

/-- The first bias row's tile is the row. -/
theorem iblk2_apply (c : Dev nD) (t : Fin cfg0.N) (n : Fin 512) :
    iblk m c 2 t (ix2 (0 : Fin 1) n) = V m c main_v4 (ix2 (0 : Fin 1) n) := by
  obtain ⟨-, -, -, -, e0, e1, -⟩ := idx_facts t
  show V m c main_v4 (((cfg0.win 2).blk t).view.emb (ix2 (0 : Fin 1) n)) = _
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 512 + 1 * n.val = n.val; omega

/-- The second weight's tile is the weight. -/
theorem iblk3_apply (c : Dev nD) (t : Fin cfg0.N) (n : Fin 768) (k : Fin 512) :
    iblk m c 3 t (ix2 n k) = V m c main_v2 (ix2 n k) := by
  obtain ⟨-, -, -, -, -, -, e0, e1, -⟩ := idx_facts t
  show V m c main_v2 (((cfg0.win 3).blk t).view.emb (ix2 n k)) = _
  refine congrArg (V m c main_v2) (funext fun a => Fin.ext ?_)
  match a with
  | ⟨0, _⟩ => show win0_3.index t (0 : Fin 2) * 768 + 1 * n.val = n.val; omega
  | ⟨1, _⟩ => show win0_3.index t (1 : Fin 2) * 512 + 1 * k.val = k.val; omega

/-- The second bias row's tile is the row. -/
theorem iblk4_apply (c : Dev nD) (t : Fin cfg0.N) (n : Fin 768) :
    iblk m c 4 t (ix2 (0 : Fin 1) n) = V m c main_v5 (ix2 (0 : Fin 1) n) := by
  obtain ⟨-, -, -, -, -, -, -, -, e0, e1, -⟩ := idx_facts t
  show V m c main_v5 (((cfg0.win 4).blk t).view.emb (ix2 (0 : Fin 1) n)) = _
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 768 + 1 * n.val = n.val; omega

/-- The output projection's weight tile is the weight. -/
theorem iblk5_apply (c : Dev nD) (t : Fin cfg0.N) (n : Fin 768) (k : Fin 768) :
    iblk m c 5 t (ix2 n k) = V m c main_v3 (ix2 n k) := by
  obtain ⟨-, -, -, -, -, -, -, -, -, -, e0, e1, -⟩ := idx_facts t
  show V m c main_v3 (((cfg0.win 5).blk t).view.emb (ix2 n k)) = _
  refine congrArg (V m c main_v3) (funext fun a => Fin.ext ?_)
  match a with
  | ⟨0, _⟩ => show win0_5.index t (0 : Fin 2) * 768 + 1 * n.val = n.val; omega
  | ⟨1, _⟩ => show win0_5.index t (1 : Fin 2) * 768 + 1 * k.val = k.val; omega

/-- The output projection's bias row's tile is the row. -/
theorem iblk6_apply (c : Dev nD) (t : Fin cfg0.N) (n : Fin 768) :
    iblk m c 6 t (ix2 (0 : Fin 1) n) = V m c main_v6 (ix2 (0 : Fin 1) n) := by
  obtain ⟨-, -, -, -, -, -, -, -, -, -, -, -, e0, e1, -⟩ := idx_facts t
  show V m c main_v6 (((cfg0.win 6).blk t).view.emb (ix2 (0 : Fin 1) n)) = _
  refine congrArg (V m c main_v6) (funext fun a => Fin.ext ?_)
  match a with
  | ⟨0, _⟩ => show win0_6.index t (0 : Fin 2) * 1 + 1 * 0 = 0; omega
  | ⟨1, _⟩ => show win0_6.index t (1 : Fin 2) * 768 + 1 * n.val = n.val; omega

/-- The scale row's tile is the row. -/
theorem iblk7_apply (c : Dev nD) (t : Fin cfg0.N) (n : Fin 768) :
    iblk m c 7 t (ix2 (0 : Fin 1) n) = V m c main_v7 (ix2 (0 : Fin 1) n) := by
  obtain ⟨-, -, -, -, -, -, -, -, -, -, -, -, -, -, e0, e1, -⟩ := idx_facts t
  show V m c main_v7 (((cfg0.win 7).blk t).view.emb (ix2 (0 : Fin 1) n)) = _
  refine congrArg (V m c main_v7) (funext fun a => Fin.ext ?_)
  match a with
  | ⟨0, _⟩ => show win0_7.index t (0 : Fin 2) * 1 + 1 * 0 = 0; omega
  | ⟨1, _⟩ => show win0_7.index t (1 : Fin 2) * 768 + 1 * n.val = n.val; omega

/-- The shift row's tile is the row. -/
theorem iblk8_apply (c : Dev nD) (t : Fin cfg0.N) (n : Fin 768) :
    iblk m c 8 t (ix2 (0 : Fin 1) n) = V m c main_v8 (ix2 (0 : Fin 1) n) := by
  obtain ⟨-, -, -, -, -, -, -, -, -, -, -, -, -, -, -, -, e0, e1, -⟩ := idx_facts t
  show V m c main_v8 (((cfg0.win 8).blk t).view.emb (ix2 (0 : Fin 1) n)) = _
  refine congrArg (V m c main_v8) (funext fun a => Fin.ext ?_)
  match a with
  | ⟨0, _⟩ => show win0_8.index t (0 : Fin 2) * 1 + 1 * 0 = 0; omega
  | ⟨1, _⟩ => show win0_8.index t (1 : Fin 2) * 768 + 1 * n.val = n.val; omega

/-- The result array's function of the arrays as the region finds them. -/
abbrev arrFn (c : Dev nD) : FVec Ideal S32768x768 .f32 :=
  rowsFn (V m c main_v0) (V m c main_v1) (V m c main_v4) (V m c main_v2) (V m c main_v5) (V m c main_v3) (V m c main_v6)
    (V m c main_v7) (V m c main_v8)

/-- WHAT POINT `t` WRITES BACK is block `t` of that function. -/
theorem flushed_eq (c : Dev nD) (t : Fin cfg0.N) :
    (dats m 0 c).flushed 9 t = ((cfg0.win 9).blk t).view.read (Elt Ideal) (arrFn m c) := by
  show (cfg0.win 9).cut (grid0.coords t) ((dats m 0 c).after 9 t) = _
  rw [after0_9]
  unfold out0_9
  rw [View.canon_unit_zero hz]
  simp only [View.ld_unit_zero (S := S1024x768) hz, View.ld_unit_zero (S := S512x768) hz, View.ld_unit_zero (S := S1x512) hz,
    View.ld_unit_zero (S := S768x512) hz, View.ld_unit_zero (S := S1x768) hz, View.ld_unit_zero (S := S768x768) hz]
  funext j
  obtain ⟨r, e, rfl⟩ : ∃ (r : Fin 1024) (e : Fin 768), j = ix2 r e := ⟨j 0, j 1, eq_ix2 j⟩
  have hN : cfg0.N = 32 := N_0
  have ht : t.val < 32 := hN ▸ t.isLt
  obtain ⟨-, -, -, -, -, -, -, -, -, -, -, -, -, -, -, -, -, -, e9a, e9b⟩ := idx_facts t
  have hR : t.val * 1024 + r.val < 32768 := by have := r.isLt; omega
  have hemb : ((cfg0.win 9).blk t).view.emb (ix2 r e) = ix2 (⟨t.val * 1024 + r.val, hR⟩ : Fin 32768) e :=
    funext fun a => Fin.ext (by
      match a with
      | ⟨0, _⟩ => show win0_9.index t (0 : Fin 2) * 1024 + 1 * r.val = t.val * 1024 + r.val; omega
      | ⟨1, _⟩ => show win0_9.index t (1 : Fin 2) * 768 + 1 * e.val = e.val; omega)
  show k0_pay1 (F := Ideal) (k0_pay2 (iblk m c 0 t) (iblk m c 1 t) (iblk m c 2 t) (iblk m c 3 t) (iblk m c 4 t) (iblk m c 5 t) (iblk m c 6 t))
      (k0_pay3 (iblk m c 0 t) (iblk m c 1 t) (iblk m c 2 t) (iblk m c 3 t) (iblk m c 4 t) (iblk m c 5 t) (iblk m c 6 t))
      (k0_pay4 (iblk m c 0 t) (iblk m c 1 t) (iblk m c 2 t) (iblk m c 3 t) (iblk m c 4 t) (iblk m c 5 t) (iblk m c 6 t))
      (Scalar.ofBits .f32 0x44400000#32) (iblk m c 7 t) (iblk m c 8 t) (ix2 r e)
    = arrFn m c (((cfg0.win 9).blk t).view.emb (ix2 r e))
  rw [hemb]
  exact tile_point _ _ _ _ _ _ _ _ _ _ _ _ _ _ _ _ _ _ r e ⟨t.val * 1024 + r.val, hR⟩
    (fun d => iblk0_apply m c t r d _ rfl) (iblk1_apply m c t) (iblk2_apply m c t) (iblk3_apply m c t) (iblk4_apply m c t)
    (iblk5_apply m c t) (iblk6_apply m c t) (iblk7_apply m c t) (iblk8_apply m c t)

/-- An index of the result array is in point `t`'s block iff each coordinate is in the block's range on its axis. -/
theorem mem_blk (t : Fin cfg0.N) (i : S32768x768.Idx) :
    i ∈ ((cfg0.win 9).blk t).view.set ↔ ∀ a : Fin 2, win0_9.index t a * S1024x768.size a ≤ (i a).val
      ∧ (i a).val < win0_9.index t a * S1024x768.size a + S1024x768.size a := by
  show i ∈ ((View.whole main_v9).slice (win0_9.rect t)).set ↔ _
  rw [View.set_slice_whole, Rect.mem_set_unit]
  exact Iff.rfl

/-- The 32 blocks tile the result array: row `R` is in the block of point `R / 1024`. -/
theorem cover (i : S32768x768.Idx) :
    ∃ t : Fin cfg0.N, (cfg0.win 9).flush t = true ∧ i ∈ ((cfg0.win 9).blk t).view.set := by
  have hN : cfg0.N = 32 := N_0
  have hi0 : (i 0).val < 32768 := (i 0).isLt
  have hi1 : (i 1).val < 768 := (i 1).isLt
  obtain ⟨t, ht⟩ : ∃ t : Fin cfg0.N, t.val = (i 0).val / 1024 := ⟨⟨(i 0).val / 1024, by rw [hN]; omega⟩, rfl⟩
  refine ⟨t, flush0_9 t, ?_⟩
  rw [mem_blk]
  obtain ⟨-, -, -, -, -, -, -, -, -, -, -, -, -, -, -, -, -, -, e9a, e9b⟩ := idx_facts t
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 768 ≤ (i 1).val ∧ (i 1).val < win0_9.index t (1 : Fin 2) * 768 + 768
    omega

/-- THE RESULT ARRAY of the region after the run: the row-by-row function of the arrays the region found. -/
theorem final (c : Dev nD) : (dats m 0 c).arrAt 9 cfg0.N = arrFn m c :=
  (dats m 0 c).arrAt_eq_of_cover 9 (arrFn m c) (fun t _ => flushed_eq m c t) (cover)

end Cert.KernelIdeal.Blocks

end
-- ==== Proof.KernelResult.lean ====
/-
  The kernel's program around its region. Before the region the host flattens the token array `[8, 4096, 768]` to
  `[32768, 768]` (token `(b, s)` becomes row `4096·b + s`), narrows the three weights (the identity at the exact reals)
  and views each bias and affine vector as a one-row array; after the region it views the `[32768, 768]` result as
  `[8, 4096, 768]` again. Read at an index, the program's result is the specification's `G` of the nine arguments.
-/
import proofs.«128961_j58480274702562_1_alg».proof.Proof.KernelBlocks
import Idealize.ShloMosaic.Lib.StableHlo.Run
import Idealize.ShloMosaic.Lib.ValueLayout

noncomputable section

namespace Cert.KernelIdeal.Result

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.TokenSpec Cert.KernelIdeal.Blocks

variable (m : (ℓ : Loc nD τ sig) → Buf (Elt Ideal) ℓ) (ρ : Dev nD → PrngReg)

/-! ## The arrays as the region finds them -/

/-- The token array, flattened. -/
theorem V_tokens (c : Dev nD) : (V m c main_v0 : FVec Ideal S32768x768 .f32)
    = shapeCast S32768x768 (m ((c : Thread nD τ).loc main_arg0)) shapeCasts_S8x4096x768_S32768x768 := by
  show StableHlo.after hostOps0 (fun b => m (c, b)) (Proc.devRef .tc main_v0) = _
  after_results
  rfl

/-- The three weights, narrowed. -/
theorem V_w1 (c : Dev nD) : (V m c main_v1 : FVec Ideal S512x768 .bf16)
    = truncf (F := Ideal) (s := S512x768) (φ := .f32) .bf16 (m ((c : Thread nD τ).loc main_arg1)) bitsLt_bf16_f32 := by
  show StableHlo.after hostOps0 (fun b => m (c, b)) (Proc.devRef .tc main_v1) = _
  after_results
theorem V_w2 (c : Dev nD) : (V m c main_v2 : FVec Ideal S768x512 .bf16)
    = truncf (F := Ideal) (s := S768x512) (φ := .f32) .bf16 (m ((c : Thread nD τ).loc main_arg3)) bitsLt_bf16_f32 := by
  show StableHlo.after hostOps0 (fun b => m (c, b)) (Proc.devRef .tc main_v2) = _
  after_results
theorem V_wo (c : Dev nD) : (V m c main_v3 : FVec Ideal S768x768 .bf16)
    = truncf (F := Ideal) (s := S768x768) (φ := .f32) .bf16 (m ((c : Thread nD τ).loc main_arg5)) bitsLt_bf16_f32 := by
  show StableHlo.after hostOps0 (fun b => m (c, b)) (Proc.devRef .tc main_v3) = _
  after_results

/-- The five vectors, each viewed as one row. -/
theorem V_b1 (c : Dev nD) : (V m c main_v4 : FVec Ideal S1x512 .f32)
    = shapeCast S1x512 (m ((c : Thread nD τ).loc main_arg2)) shapeCasts_S512_S1x512 := by
  show StableHlo.after hostOps0 (fun b => m (c, b)) (Proc.devRef .tc main_v4) = _
  after_results
  rfl
theorem V_b2 (c : Dev nD) : (V m c main_v5 : FVec Ideal S1x768 .f32)
    = shapeCast S1x768 (m ((c : Thread nD τ).loc main_arg4)) shapeCasts_S768_S1x768 := by
  show StableHlo.after hostOps0 (fun b => m (c, b)) (Proc.devRef .tc main_v5) = _
  after_results
  rfl
theorem V_bo (c : Dev nD) : (V m c main_v6 : FVec Ideal S1x768 .f32)
    = shapeCast S1x768 (m ((c : Thread nD τ).loc main_arg6)) shapeCasts_S768_S1x768 := by
  show StableHlo.after hostOps0 (fun b => m (c, b)) (Proc.devRef .tc main_v6) = _
  after_results
  rfl
theorem V_gamma (c : Dev nD) : (V m c main_v7 : FVec Ideal S1x768 .f32)
    = shapeCast S1x768 (m ((c : Thread nD τ).loc main_arg7)) shapeCasts_S768_S1x768 := by
  show StableHlo.after hostOps0 (fun b => m (c, b)) (Proc.devRef .tc main_v7) = _
  after_results
  rfl
theorem V_beta (c : Dev nD) : (V m c main_v8 : FVec Ideal S1x768 .f32)
    = shapeCast S1x768 (m ((c : Thread nD τ).loc main_arg8)) shapeCasts_S768_S1x768 := by
  show StableHlo.after hostOps0 (fun b => m (c, b)) (Proc.devRef .tc main_v8) = _
  after_results
  rfl

/-! ## The same, read at an index -/

/-- Row `4096·b + s` of the flattened token array is token `(b, s)`. -/
theorem tokens_apply (c : Dev nD) (b : Fin 8) (s : Fin 4096) (d : Fin 768) (R : Fin 32768) (hR : R.val = b.val * 4096 + s.val) :
    V m c main_v0 (ix2 R d) = (m ((c : Thread nD τ).loc main_arg0) : FVec Ideal S8x4096x768 .f32) (ix3 b s d) := by
  rw [V_tokens]
  exact shapeCast_apply (s := S8x4096x768) (t := S32768x768)
    (m ((c : Thread nD τ).loc main_arg0) : FVec Ideal S8x4096x768 .f32) shapeCasts_S8x4096x768_S32768x768 (ix2 R d) (ix3 b s d) (by
      rw [Shape.rowMajor_val_three, Shape.rowMajor_val_two]
      show (b.val * 4096 + s.val) * 768 + d.val = R.val * 768 + d.val
      rw [hR])

theorem w1_apply (c : Dev nD) (n : Fin 512) (k : Fin 768) :
    V m c main_v1 (ix2 n k) = (m ((c : Thread nD τ).loc main_arg1) : FVec Ideal S512x768 .f32) (ix2 n k) := by
  rw [V_w1]; rfl
theorem w2_apply (c : Dev nD) (n : Fin 768) (k : Fin 512) :
    V m c main_v2 (ix2 n k) = (m ((c : Thread nD τ).loc main_arg3) : FVec Ideal S768x512 .f32) (ix2 n k) := by
  rw [V_w2]; rfl
theorem wo_apply (c : Dev nD) (n : Fin 768) (k : Fin 768) :
    V m c main_v3 (ix2 n k) = (m ((c : Thread nD τ).loc main_arg5) : FVec Ideal S768x768 .f32) (ix2 n k) := by
  rw [V_wo]; rfl
theorem b1_apply (c : Dev nD) (n : Fin 512) :
    V m c main_v4 (ix2 (0 : Fin 1) n) = (m ((c : Thread nD τ).loc main_arg2) : FVec Ideal S512 .f32) (ix1 n) := by
  rw [V_b1]; exact shapeCast_a_1a_apply _ _ 0 n
theorem b2_apply (c : Dev nD) (n : Fin 768) :
    V m c main_v5 (ix2 (0 : Fin 1) n) = (m ((c : Thread nD τ).loc main_arg4) : FVec Ideal S768 .f32) (ix1 n) := by
  rw [V_b2]; exact shapeCast_a_1a_apply _ _ 0 n
theorem bo_apply (c : Dev nD) (n : Fin 768) :
    V m c main_v6 (ix2 (0 : Fin 1) n) = (m ((c : Thread nD τ).loc main_arg6) : FVec Ideal S768 .f32) (ix1 n) := by
  rw [V_bo]; exact shapeCast_a_1a_apply _ _ 0 n
theorem gamma_apply (c : Dev nD) (n : Fin 768) :
    V m c main_v7 (ix2 (0 : Fin 1) n) = (m ((c : Thread nD τ).loc main_arg7) : FVec Ideal S768 .f32) (ix1 n) := by
  rw [V_gamma]; exact shapeCast_a_1a_apply _ _ 0 n
theorem beta_apply (c : Dev nD) (n : Fin 768) :
    V m c main_v8 (ix2 (0 : Fin 1) n) = (m ((c : Thread nD τ).loc main_arg8) : FVec Ideal S768 .f32) (ix1 n) := by
  rw [V_beta]; exact shapeCast_a_1a_apply _ _ 0 n

/-- The specification's `G` of the program's nine arguments as launched. -/
abbrev spec (c : Dev nD) : FVec Ideal S8x4096x768 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Row `4096·b + s` of the region's result is token `(b, s)`'s result. -/
theorem arrFn_apply (c : Dev nD) (b : Fin 8) (s : Fin 4096) (e : Fin 768) (R : Fin 32768) (hR : R.val = b.val * 4096 + s.val) :
    arrFn m c (ix2 R e) = spec m c (ix3 b s e) := by
  show token (fun d => V m c main_v0 (ix2 R d)) (fun n k => V m c main_v1 (ix2 n k)) (fun n => V m c main_v4 (ix2 (0 : Fin 1) n))
      (fun n k => V m c main_v2 (ix2 n k)) (fun n => V m c main_v5 (ix2 (0 : Fin 1) n)) (fun n k => V m c main_v3 (ix2 n k))
      (fun n => V m c main_v6 (ix2 (0 : Fin 1) n)) (fun n => V m c main_v7 (ix2 (0 : Fin 1) n))
      (fun n => V m c main_v8 (ix2 (0 : Fin 1) n)) e = _
  simp only [tokens_apply m c b s _ R hR, w1_apply m c, w2_apply m c, wo_apply m c, b1_apply m c, b2_apply m c, bo_apply m c,
    gamma_apply m c, beta_apply m c]
  exact (G_apply _ _ _ _ _ _ _ _ _ b s e).symm

/-! ## After the region -/

/-- The program's result: the region's array viewed `[8, 4096, 768]`. -/
theorem tail_eq (c : Dev nD) : Pipeline.afterTail₀ cfgs (dats m) 0 (V0 m) [hostOps1] c main_v10
    = shapeCast S8x4096x768 ((dats m 0 c).arrAt 9 cfg0.N) shapeCasts_S32768x768_S8x4096x768 := by
  unfold Pipeline.afterTail₀
  show StableHlo.after hostOps1 (Pipeline.withArrays spec0 c (V0 m c) fun w => (dats m 0 c).arrAt w cfg0.N)
    (Proc.devRef .tc main_v10) = _
  generalize hWdef : Pipeline.withArrays spec0 c (V0 m c) (fun w => (dats m 0 c).arrAt w cfg0.N) = W
  have hW : W (Proc.devRef .tc main_v9) = (dats m 0 c).arrAt 9 cfg0.N := by
    rw [← hWdef]; exact Pipeline.withArrays_arr spec0 launch0.win.arr_inj c _ _ 9
  after_results
  rw [hW]
  rfl

/-- THE PROGRAM'S RESULT is the specification's `G` of its arguments: entry `(b, s, e)` of the reshaped result is row
    `4096·b + s` of the region's array, which is token `(b, s)`'s result. -/
theorem result_eq (c : Dev nD) : Pipeline.afterTail₀ cfgs (dats m) 0 (V0 m) [hostOps1] c main_v10 = spec m c := by
  rw [tail_eq, final]
  funext i
  obtain ⟨b, s, e, rfl⟩ : ∃ (b : Fin 8) (s : Fin 4096) (e : Fin 768), i = ix3 b s e := ⟨i 0, i 1, i 2, eq_ix3 i⟩
  have hR : b.val * 4096 + s.val < 32768 := by have := b.isLt; have := s.isLt; omega
  refine (shapeCast_apply (s := S32768x768) (t := S8x4096x768) (arrFn m c) shapeCasts_S32768x768_S8x4096x768 (ix3 b s e)
    (ix2 (⟨b.val * 4096 + s.val, hR⟩ : Fin 32768) e) (by
      rw [Shape.rowMajor_val_two, Shape.rowMajor_val_three]
      rfl)).trans ?_
  exact arrFn_apply m c b s e _ rfl

/-! ## The run, read -/

/-- Every weakly fair execution of the kernel's program terminates with its result at `G` of the arguments and the
    arguments unchanged: the generated frame run, its post read through the lemmas above. -/
theorem run : θ_run defs (onTc (τ := τ) (main (F := Ideal))) ⟨m, fun _ => 0, ρ⟩ fun r => ∀ c : Dev nD,
      r.2.mem ((c.tc : Thread nD τ).loc main_v10) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.RefValue.lean ====
/-
  The reference, read at an index: jnp's program treats all 8 · 4096 tokens at once (three `dot_general`s against the
  output-major weights, the biases broadcast along the token axes, row sums along the last axis), but entry `(b, s, e)`
  of each of its intermediate arrays depends on token `(b, s)`'s row alone. Stage by stage (the hidden units, the two
  later layers, the mean, the variance, the normalised row) its arrays are the specification's functions of that row,
  and its result array is the specification's `G`.
-/
import proofs.«128961_j58480274702562_1_alg».proof.Proof.Gen.ReferenceIdeal.Read
import proofs.«128961_j58480274702562_1_alg».proof.Proof.TokenSpec

noncomputable section

namespace Cert.ReferenceIdeal.RefValue

open Cert.ReferenceIdeal Cert.ReferenceIdeal.Read Idealize.ShloMosaic Idealize.ShloMosaic.ValueIdx Cert.TokenSpec

variable (x0 : (⟨S8x4096x768, .f32⟩ : BufTy).Contents (Elt Ideal)) (x1 : (⟨S512x768, .f32⟩ : BufTy).Contents (Elt Ideal))
  (x2 : (⟨S512, .f32⟩ : BufTy).Contents (Elt Ideal)) (x3 : (⟨S768x512, .f32⟩ : BufTy).Contents (Elt Ideal))
  (x4 : (⟨S768, .f32⟩ : BufTy).Contents (Elt Ideal)) (x5 : (⟨S768x768, .f32⟩ : BufTy).Contents (Elt Ideal))
  (x6 x7 x8 : (⟨S768, .f32⟩ : BufTy).Contents (Elt Ideal))

/-- Token `(b, s)`'s hidden units. -/
abbrev hiddenRow (b : Fin 8) (s : Fin 4096) : Fin 512 → EReal := fun i =>
  clip0 (affine (fun d => x0 (ix3 b s d)) (fun n k => x1 (ix2 n k)) (fun n => x2 (ix1 n)) i)

/-- Token `(b, s)`'s output projection, before the normalisation. -/
abbrev outRow (b : Fin 8) (s : Fin 4096) : Fin 768 → EReal :=
  projected (fun d => x0 (ix3 b s d)) (fun n k => x1 (ix2 n k)) (fun n => x2 (ix1 n)) (fun n k => x3 (ix2 n k))
    (fun n => x4 (ix1 n)) (fun n k => x5 (ix2 n k)) (fun n => x6 (ix1 n))

/-- The clipped first layer at `(b, s, i)`. -/
theorem hidden_apply (b : Fin 8) (s : Fin 4096) (i : Fin 512) :
    val_main_v4 (F := Ideal) x0 x1 x2 (ix3 b s i) = hiddenRow x0 x1 x2 b s i := by
  rw [val_main_v4_apply, val_main_v3_apply, val_main_v0_apply, val_main_v2_apply, val_main_v1_apply,
    val_main_call0_v0_apply, val_main_call0_cst_apply]
  have e1 : ∀ k, lidx_main_v0 (ix3 b s i) k = ix3 b s k := fun k => funext fun a => Fin.ext (by
    match a with | ⟨0, _⟩ => rfl | ⟨1, _⟩ => rfl | ⟨2, _⟩ => rfl)
  have e2 : ∀ k, ridx_main_v0 (ix3 b s i) k = ix2 i k := fun k => funext fun a => Fin.ext (by
    match a with | ⟨0, _⟩ => rfl | ⟨1, _⟩ => rfl)
  have e3 : idx_main_v1 (idx_main_v2 (ix3 b s i)) = ix1 i := funext fun a => Fin.ext (by
    match a with | ⟨0, _⟩ => rfl)
  simp only [e1, e2, e3]
  rfl

/-- The second layer at `(b, s, d)`. -/
theorem pred_apply (b : Fin 8) (s : Fin 4096) (d : Fin 768) :
    val_main_v8 (F := Ideal) x0 x1 x2 x3 x4 (ix3 b s d)
      = affine (hiddenRow x0 x1 x2 b s) (fun n k => x3 (ix2 n k)) (fun n => x4 (ix1 n)) d := by
  rw [val_main_v8_apply, val_main_v5_apply, val_main_v7_apply, val_main_v6_apply]
  have e1 : ∀ k, lidx_main_v5 (ix3 b s d) k = ix3 b s k := fun k => funext fun a => Fin.ext (by
    match a with | ⟨0, _⟩ => rfl | ⟨1, _⟩ => rfl | ⟨2, _⟩ => rfl)
  have e2 : ∀ k, ridx_main_v5 (ix3 b s d) k = ix2 d k := fun k => funext fun a => Fin.ext (by
    match a with | ⟨0, _⟩ => rfl | ⟨1, _⟩ => rfl)
  have e3 : idx_main_v6 (idx_main_v7 (ix3 b s d)) = ix1 d := funext fun a => Fin.ext (by
    match a with | ⟨0, _⟩ => rfl)
  simp only [e1, e2, e3, hidden_apply]
  rfl

/-- The output projection at `(b, s, e)`. -/
theorem out_apply (b : Fin 8) (s : Fin 4096) (e : Fin 768) :
    val_main_v12 (F := Ideal) x0 x1 x2 x3 x4 x5 x6 (ix3 b s e) = outRow x0 x1 x2 x3 x4 x5 x6 b s e := by
  rw [val_main_v12_apply, val_main_v9_apply, val_main_v11_apply, val_main_v10_apply]
  have e1 : ∀ k, lidx_main_v9 (ix3 b s e) k = ix3 b s k := fun k => funext fun a => Fin.ext (by
    match a with | ⟨0, _⟩ => rfl | ⟨1, _⟩ => rfl | ⟨2, _⟩ => rfl)
  have e2 : ∀ k, ridx_main_v9 (ix3 b s e) k = ix2 e k := fun k => funext fun a => Fin.ext (by
    match a with | ⟨0, _⟩ => rfl | ⟨1, _⟩ => rfl)
  have e3 : idx_main_v10 (idx_main_v11 (ix3 b s e)) = ix1 e := funext fun a => Fin.ext (by
    match a with | ⟨0, _⟩ => rfl)
  simp only [e1, e2, e3, pred_apply]
  rfl

/-- The row's mean, kept with a unit last axis: at `(b, s, ·)` the mean of token `(b, s)`'s outputs (the sum starts
    from the zero word, which adds nothing). -/
theorem mean_apply (b : Fin 8) (s : Fin 4096) (u : Fin 1) :
    val_main_v16 (F := Ideal) x0 x1 x2 x3 x4 x5 x6 (ix3 b s u) = rowMean (outRow x0 x1 x2 x3 x4 x5 x6 b s) := by
  rw [val_main_v16_apply, val_main_v14_apply, val_main_v13_apply, val_main_v15_apply, val_main_cst_0_apply,
    val_main_cst_apply]
  have e1 : ∀ k, idx_main_v13 (idx_main_v14 (ix3 b s u)) k = ix3 b s k := fun k => funext fun a => Fin.ext (by
    match a with | ⟨0, _⟩ => rfl | ⟨1, _⟩ => rfl | ⟨2, _⟩ => rfl)
  simp only [e1, out_apply]
  show Ideal.div (Ideal.ofBits .f32 0x00000000#32 + _) (Ideal.ofBits .f32 0x44400000#32) = rowMean _
  rw [Ideal.ofBits_zero_f32, zero_add]
  rfl

/-- A squared deviation from the row's mean at `(b, s, e)`. -/
theorem sqdev_apply (b : Fin 8) (s : Fin 4096) (e : Fin 768) :
    val_main_v19 (F := Ideal) x0 x1 x2 x3 x4 x5 x6 (ix3 b s e)
      = centred (outRow x0 x1 x2 x3 x4 x5 x6 b s) e * centred (outRow x0 x1 x2 x3 x4 x5 x6 b s) e := by
  rw [val_main_v19_apply, val_main_v18_apply, val_main_v17_apply]
  have e1 : idx_main_v17 (ix3 b s e) = ix3 b s (0 : Fin 1) := funext fun a => Fin.ext (by
    match a with | ⟨0, _⟩ => rfl | ⟨1, _⟩ => rfl | ⟨2, _⟩ => rfl)
  rw [e1, out_apply, mean_apply]
  rfl

/-- The row's variance, kept with a unit last axis. -/
theorem var_apply (b : Fin 8) (s : Fin 4096) (u : Fin 1) :
    val_main_v23 (F := Ideal) x0 x1 x2 x3 x4 x5 x6 (ix3 b s u) = rowVar (outRow x0 x1 x2 x3 x4 x5 x6 b s) := by
  rw [val_main_v23_apply, val_main_v21_apply, val_main_v20_apply, val_main_v22_apply, val_main_cst_2_apply,
    val_main_cst_1_apply]
  have e1 : ∀ k, idx_main_v20 (idx_main_v21 (ix3 b s u)) k = ix3 b s k := fun k => funext fun a => Fin.ext (by
    match a with | ⟨0, _⟩ => rfl | ⟨1, _⟩ => rfl | ⟨2, _⟩ => rfl)
  simp only [e1, sqdev_apply]
  show Ideal.div (Ideal.ofBits .f32 0x00000000#32 + _) (Ideal.ofBits .f32 0x44400000#32) = rowVar _
  rw [Ideal.ofBits_zero_f32, zero_add]
  rfl

/-- THE REFERENCE'S RESULT at `(b, s, e)`: the specification's token function of row `(b, s)`. -/
theorem result_apply (b : Fin 8) (s : Fin 4096) (e : Fin 768) :
    val_main_v36 (F := Ideal) x0 x1 x2 x3 x4 x5 x6 x7 x8 (ix3 b s e)
      = token (fun d => x0 (ix3 b s d)) (fun n k => x1 (ix2 n k)) (fun n => x2 (ix1 n)) (fun n k => x3 (ix2 n k))
          (fun n => x4 (ix1 n)) (fun n k => x5 (ix2 n k)) (fun n => x6 (ix1 n)) (fun n => x7 (ix1 n)) (fun n => x8 (ix1 n)) e := by
  rw [val_main_v36_apply, val_main_v33_apply, val_main_v30_apply, val_main_v25_apply, val_main_v24_apply,
    val_main_v29_apply, val_main_v28_apply, val_main_v27_apply, val_main_v26_apply, val_main_cst_3_apply,
    val_main_v32_apply, val_main_v31_apply, val_main_v35_apply, val_main_v34_apply]
  have e1 : idx_main_v24 (ix3 b s e) = ix3 b s (0 : Fin 1) := funext fun a => Fin.ext (by
    match a with | ⟨0, _⟩ => rfl | ⟨1, _⟩ => rfl | ⟨2, _⟩ => rfl)
  have e2 : idx_main_v29 (ix3 b s e) = ix3 b s (0 : Fin 1) := funext fun a => Fin.ext (by
    match a with | ⟨0, _⟩ => rfl | ⟨1, _⟩ => rfl | ⟨2, _⟩ => rfl)
  have e3 : idx_main_v31 (idx_main_v32 (ix3 b s e)) = ix1 e := funext fun a => Fin.ext (by
    match a with | ⟨0, _⟩ => rfl)
  have e4 : idx_main_v34 (idx_main_v35 (ix3 b s e)) = ix1 e := funext fun a => Fin.ext (by
    match a with | ⟨0, _⟩ => rfl)
  rw [e1, e2, e3, e4, out_apply, mean_apply, var_apply]
  rfl

/-- The reference's result array is the specification's `G` of its arguments. -/
theorem result_eq : val_main_v36 (F := Ideal) x0 x1 x2 x3 x4 x5 x6 x7 x8 = G x0 x1 x2 x3 x4 x5 x6 x7 x8 := by
  funext i
  obtain ⟨b, s, e, rfl⟩ : ∃ (b : Fin 8) (s : Fin 4096) (e : Fin 768), i = ix3 b s e := ⟨i 0, i 1, i 2, eq_ix3 i⟩
  rw [G_apply]
  exact result_apply x0 x1 x2 x3 x4 x5 x6 x7 x8 b s e

end Cert.ReferenceIdeal.RefValue

end
-- ==== Proof.lean ====
/-
  A token-wise MLP block followed by a row normalisation: each of the 8 · 4096 tokens (a row of 768 numbers) goes through
  a dense layer to 512 units clipped below at zero, a dense layer back to 768, an output projection to 768, and is then
  normalised along its 768 entries (mean and biased variance, `rsqrt (variance + ε)`), scaled and shifted.

  The kernel flattens the tokens to 32768 rows, handles 1024 rows per grid point with the weights narrowed to a
  sixteen-bit format on the way into each product, and reshapes the result back; the reference applies `einsum`s to the
  whole `[8, 4096, 768]` array. At the exact (extended) reals a change of float format is the identity and a product is a
  plain sum over the contracted axis, so both programs compute, entry by entry, ONE function `G` of the nine arguments
  (TokenSpec.lean): a token's result depends on its own row and on the weights only, whatever tile or batch position
  the token sits in. No algebraic law beyond reading the operations at an index is needed, so the precondition (finite
  inputs) is never opened: operation for operation the two programs apply the same exact operations to the same numbers,
  in the same order, with the same three literal words (zero, 768, ε).

  The frames of the two kernel programs are the generated ones; the reference's frame is its generated run with the
  result dropped; the ideal pass rewrote nothing, so the idealization claim is trivial; the algebraic claim states both
  runs' results as `G` of arguments that agree.
-/
import proofs.«128961_j58480274702562_1_alg».proof.Defs
import proofs.«128961_j58480274702562_1_alg».proof.Proof.Gen.Kernel
import proofs.«128961_j58480274702562_1_alg».proof.Proof.Gen.Kernel.Skeleton
import proofs.«128961_j58480274702562_1_alg».proof.Proof.Gen.Kernel.Launch
import proofs.«128961_j58480274702562_1_alg».proof.Proof.Gen.Kernel.Points
import proofs.«128961_j58480274702562_1_alg».proof.Proof.Gen.Kernel.Frame
import proofs.«128961_j58480274702562_1_alg».proof.Proof.Gen.KernelIdeal
import proofs.«128961_j58480274702562_1_alg».proof.Proof.Gen.KernelIdeal.Skeleton
import proofs.«128961_j58480274702562_1_alg».proof.Proof.Gen.KernelIdeal.Launch
import proofs.«128961_j58480274702562_1_alg».proof.Proof.Gen.KernelIdeal.Points
import proofs.«128961_j58480274702562_1_alg».proof.Proof.Gen.KernelIdeal.Frame
import proofs.«128961_j58480274702562_1_alg».proof.Proof.Gen.ReferenceIdeal
import proofs.«128961_j58480274702562_1_alg».proof.Proof.Gen.ReferenceIdeal.Run
import proofs.«128961_j58480274702562_1_alg».proof.Proof.Gen.ReferenceIdeal.Read
import proofs.«128961_j58480274702562_1_alg».proof.Proof.Gen.Pre_finite_inputs
import proofs.«128961_j58480274702562_1_alg».proof.Proof.KernelResult
import proofs.«128961_j58480274702562_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to state. -/
theorem preserves : Cert.preserves_Kernel_KernelIdeal := trivial

/-- At the exact reals the kernel's result array ends at `G` of its arguments (the frame run read through the tiles and
    the two reshapes) and the reference's at `G` of its own (its run read one operation at a time); the arguments agree. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq]
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
